-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S2048x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x4096.size a
  hwx0_0 : ∀ i : grid0.Coords, EltTy.bits .f32 = 32 ∨ (Rect.block (s := S2048x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S2048x4096, .f32⟩
  | .hbm, ⟨42, _⟩ => ⟨S2048x4096, .f32⟩
  | .hbm, ⟨43, _⟩ => ⟨S_, .f32⟩
  | .hbm, ⟨44, _⟩ => ⟨S2048x4096, .f32⟩
  | .hbm, ⟨45, _⟩ => ⟨S2048x4096, .i1⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_call4_v0 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Pieces.lean ====
import proofs.«103061_j73890617361017_2_alg».proof.Proof.Gen.KernelIdeal.Frame
import Idealize.ShloMosaic.Lib.Pipeline.Value
import Idealize.ShloMosaic.Lib.Tactic

/-!
What one grid point's body leaves behind, as pure terms.

The body is run once per control case; each case's stores are found as a list of pieces. Here the pieces are read back:
the accumulator after a point is the accumulator before it plus the product of the point's two quantized blocks
(from the zero block at the first point of the reduction axis), and the output block written at the last point of the
reduction axis is the epilogue of the finished accumulator and the bias row.
-/

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a middle point of the reduction axis the body leaves, in the accumulator holding `acc`, its one covering
    store's payload: `acc` plus the product of the two quantized blocks. -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x512) hz, View.ld_unit_zero (S := S512x1024) hz, View.ld_unit_zero (S := S1024x1024) hz]

/-- At the first point of the reduction axis the body zeroes the accumulator, reads the zero block back, and leaves
    the zero block plus the first product. -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S512x1024) hz]

/-- At the last point of the reduction axis the accumulator gets the last product like at a middle point … -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x512) hz, View.ld_unit_zero (S := S512x1024) hz, View.ld_unit_zero (S := S1024x1024) hz]

/-- … and the output block gets the epilogue of the finished accumulator (read back from that store) and the bias row. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x512) hz, View.ld_unit_zero (S := S512x1024) hz, View.ld_unit_zero (S := S1024x1024) hz,
    View.ld_unit_zero (S := S1x1024) hz]

end Cert.KernelIdeal.Pieces

end
-- ==== Proof.FixedPoint.lean ====
import Idealize.ShloMosaic.PureOps.Ideal
import Idealize.ShloMosaic.PureOps.Ideal.Laws

/-!
Rounding to the fixed-point grid of 16 fractional bits, on the extended reals.

The kernel quantizes a value `v` as `round(v · 2¹⁶) · 2⁻¹⁶`; the reference writes the same number as
`v + (round(v · 2¹⁶) / 2¹⁶ − v)` (a straight-through estimator, whose gradient trick is invisible to the
forward value). On a REAL `v` the two agree, because `v` cancels and division by `2¹⁶` is the product with `2⁻¹⁶`;
at an infinity they do not (`⊤ + (⊤ − ⊤)` is junk), which is where finiteness of the inputs enters.
Everything downstream (products, finite sums, the ReLU select, a second rounding) keeps reals real.
-/

noncomputable section

namespace Cert.FixedPoint

open Idealize.ShloMosaic

/-- The f32 word `0x47800000` is `2¹⁶ = 65536`. -/
theorem scale_eq : Ideal.ofBits .f32 0x47800000#32 = ((65536 : ℝ) : EReal) := by
  simp [Ideal.ofBits, Ideal.ieee, -EReal.coe_mul]; norm_num

/-- The f32 word `0x37800000` is `2⁻¹⁶ = 1 / 65536`, exactly. -/
theorem invScale_eq : Ideal.ofBits .f32 0x37800000#32 = ((1 / 65536 : ℝ) : EReal) := by
  simp [Ideal.ofBits, Ideal.ieee, -EReal.coe_mul]; norm_num

/-- The f32 word `0x7F800000` is `+∞`. -/
theorem inf_eq : Ideal.ofBits .f32 0x7F800000#32 = (⊤ : EReal) := by
  simp [Ideal.ofBits, Ideal.ieee]

/-- The kernel's quantizer: scale up, round to the nearest integer (ties to even), scale down by the product. -/
def quant (v : EReal) : EReal :=
  Ideal.liftRound Ideal.roundHalfEven (v * Ideal.ofBits .f32 0x47800000#32) * Ideal.ofBits .f32 0x37800000#32

/-- The reference's quantizer: `v + (round(v · 2¹⁶) / 2¹⁶ − v)`. -/
def quantST (v : EReal) : EReal :=
  v + (Ideal.div (Ideal.liftRound Ideal.roundHalfEven (v * Ideal.ofBits .f32 0x47800000#32))
    (Ideal.ofBits .f32 0x47800000#32) - v)

/-- The ReLU both programs compute: `v` where `v ≥ 0`, the zero word elsewhere. -/
def relu (v : EReal) : EReal :=
  Scalar.select (Ideal.cmp .oge v (Ideal.ofBits .f32 0x00000000#32)) v (Ideal.ofBits .f32 0x00000000#32)

/-- An extended real that is a real number. -/
def IsReal (v : EReal) : Prop := ∃ r : ℝ, v = (r : EReal)

theorem isReal_coe (r : ℝ) : IsReal (r : EReal) := ⟨r, rfl⟩

theorem isReal_zero : IsReal (Ideal.ofBits .f32 0x00000000#32) := ⟨0, by rw [Ideal.ofBits_zero_f32]; rfl⟩

/-- The kernel's quantizer at a real. -/
theorem quant_coe (r : ℝ) :
    quant (r : EReal) = (((Ideal.roundHalfEven (r * 65536) : ℤ) : ℝ) * (1 / 65536) : ℝ) := by
  unfold quant
  rw [scale_eq, invScale_eq, ← EReal.coe_mul, Ideal.liftRound_coe, ← EReal.coe_mul]

/-- On a real the reference's quantizer is the kernel's: the `v`s cancel and `/ 2¹⁶` is `· 2⁻¹⁶`. -/
theorem quantST_coe (r : ℝ) : quantST (r : EReal) = quant (r : EReal) := by
  rw [quant_coe]
  unfold quantST
  rw [scale_eq, ← EReal.coe_mul, Ideal.liftRound_coe, Ideal.div_coe (by norm_num), ← EReal.coe_mul, ← EReal.coe_sub,
    ← EReal.coe_add]
  congr 1
  ring

theorem quantST_eq {v : EReal} (h : IsReal v) : quantST v = quant v := by
  obtain ⟨r, rfl⟩ := h; exact quantST_coe r

theorem isReal_quant {v : EReal} (h : IsReal v) : IsReal (quant v) := by
  obtain ⟨r, rfl⟩ := h; exact ⟨_, quant_coe r⟩

theorem isReal_mul {a b : EReal} (ha : IsReal a) (hb : IsReal b) : IsReal (a * b) := by
  obtain ⟨r, rfl⟩ := ha; obtain ⟨s, rfl⟩ := hb; exact ⟨r * s, (EReal.coe_mul r s).symm⟩

theorem isReal_add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type*} (s : Finset ι) (f : ι → EReal) (h : ∀ i ∈ s, IsReal (f i)) :
    IsReal (∑ i ∈ s, f i) :=
  Finset.sum_induction f IsReal (fun _ _ => isReal_add) ⟨0, rfl⟩ h

/-- The ReLU returns its argument or the zero word: a real either way. -/
theorem isReal_relu {v : EReal} (h : IsReal v) : IsReal (relu v) := by
  unfold relu Scalar.select
  split
  · exact h
  · exact isReal_zero

/-- The element fact of a finite-inputs precondition: `|v| < +∞` (as the comparison's bit) makes `v` a real. -/
theorem isReal_of_abs_lt_inf {v : EReal}
    (h : Ideal.cmp .olt (max v (-v)) (Ideal.ofBits .f32 0x7F800000#32) = 1#1) : IsReal v := by
  rw [inf_eq] at h
  have hlt : max v (-v) < ⊤ := by
    by_contra hn
    have h' : BitVec.ofBool (decide (max v (-v) < ⊤)) = 1#1 := h
    rw [decide_eq_false hn] at h'
    exact absurd h' (by decide)
  induction v using EReal.rec with
  | bot => simp at hlt
  | coe r => exact ⟨r, rfl⟩
  | top => simp at hlt

end Cert.FixedPoint

end
-- ==== Proof.Payload.lean ====
import proofs.«103061_j73890617361017_2_alg».proof.Proof.Gen.KernelIdeal.Skeleton
import proofs.«103061_j73890617361017_2_alg».proof.Proof.FixedPoint
import Idealize.ShloMosaic.Lib.ValueIdx
import Idealize.ShloMosaic.Lib.ValueLayout
import Idealize.ShloMosaic.Lib.Pipeline.Value
import Idealize.ShloMosaic.PureOps.Ideal.Laws

/-!
The body's three stored values at an index, over the extended reals.

* the reset stores the zero block;
* the accumulation stores `acc + Σₖ q(x[p,k]) · q(w[k,c])` over the 512 columns of the point's `x` block and rows of its
  `w` block, `q` the fixed-point rounding (the two casts to bf16 are the identity on extended reals, and the matrix unit's
  product into a zero accumulator is the plain sum);
* the epilogue stores `q(relu(q(acc) + q(b[c])))`, the bias row broadcast down the block's rows.
-/

noncomputable section

namespace Cert.KernelIdeal.Payload

open Cert.KernelIdeal Cert.KernelIdeal.Gen Cert.FixedPoint
open Idealize.ShloMosaic Idealize.ShloMosaic.ValueIdx

/-- The block product's dimension numbers: rows of the left operand times columns of the right, one contracted axis. -/
abbrev dotK : DotDims S1024x512 S512x1024 S1024x1024 := dot_S1024x512_S512x1024_S1024x1024_1_0_0_1_n_n

/-- The reset's payload is the zero block. -/
theorem pay1_apply (j : S1024x1024.Idx) : k0_pay1 (F := Ideal) j = 0 := by
  have e : k0_pay1 (F := Ideal) = fun _ => (0 : EReal) := by
    unfold k0_pay1
    refine (shapeCast_self _ _).trans ?_
    funext j
    exact Ideal.ofBits_zero_f32
  rw [e]

/-- The accumulation's payload as one vector expression over the quantized blocks. -/
theorem pay2_eq (x0 : Vec Ideal S1024x512 .f32) (x1 : Vec Ideal S512x1024 .f32) (acc : Vec Ideal S1024x1024 .f32) :
    k0_pay2 (F := Ideal) x0 x1 acc
      = addf acc (matmul (F := Ideal) (φ₁ := .bf16) (φ₂ := .bf16) dotK none (fun i => quant (x0 i))
          (fun i => quant (x1 i)) (constant S1024x1024 .f32 0x00000000#32)) := by
  unfold k0_pay2
  exact shapeCast_self _ _

theorem lhs_row (j : S1024x1024.Idx) (k : dotK.contr.Idx) : (dotK.lhsIdx j k 0).val = (j 0).val := by
  unfold DotDims.lhsIdx
  rw [dif_neg (show ¬(0 : Fin S1024x512.rank) ∈ dotK.lhsBatch by decide),
    dif_pos (show (0 : Fin S1024x512.rank) ∈ dotK.lhsNonContracting by decide)]
  rfl

theorem rhs_col (j : S1024x1024.Idx) (k : dotK.contr.Idx) : (dotK.rhsIdx j k 1).val = (j 1).val := by
  unfold DotDims.rhsIdx
  rw [dif_neg (show ¬(1 : Fin S512x1024.rank) ∈ dotK.rhsBatch by decide),
    dif_pos (show (1 : Fin S512x1024.rank) ∈ dotK.rhsNonContracting by decide)]
  rfl

/-- The accumulation at row `p`, column `c` of the block: the accumulator there plus the 512-term sum of products. -/
theorem pay2_apply (x0 : Vec Ideal S1024x512 .f32) (x1 : Vec Ideal S512x1024 .f32) (acc : Vec Ideal S1024x1024 .f32)
    (p c : Fin 1024) :
    k0_pay2 (F := Ideal) x0 x1 acc (ix2 p c)
      = acc (ix2 p c) + ∑ k : Fin 512, quant (x0 (ix2 p k)) * quant (x1 (ix2 k c)) := by
  rw [pay2_eq]
  show acc (ix2 p c) + FloatOps.matmul (F := Ideal) (φ₁ := .bf16) (φ₂ := .bf16) dotK none (fun i => quant (x0 i))
      (fun i => quant (x1 i)) (constant S1024x1024 .f32 0x00000000#32) (ix2 p c) = _
  rw [Ideal.matmul_constant_zero_apply, ← Equiv.sum_comp (contrEquiv1 dotK 512 rfl rfl).symm]
  congr 1
  refine Finset.sum_congr rfl fun k _ => ?_
  have hk := contrEquiv1_symm_val dotK 512 rfl rfl k
  have el : dotK.lhsIdx (ix2 p c) ((contrEquiv1 dotK 512 rfl rfl).symm k) = ix2 p k := funext fun a => Fin.ext (by
    match a with
    | ⟨0, _⟩ => exact lhs_row _ _
    | ⟨1, _⟩ => exact (dotK.lhsIdx_val_of_single rfl _ _).trans hk)
  have er : dotK.rhsIdx (ix2 p c) ((contrEquiv1 dotK 512 rfl rfl).symm k) = ix2 k c := funext fun a => Fin.ext (by
    match a with
    | ⟨0, _⟩ => exact (dotK.rhsIdx_val_of_single rfl _ _).trans hk
    | ⟨1, _⟩ => exact rhs_col _ _)
  rw [el, er]

/-- The epilogue's payload as one function of the block index. -/
theorem pay3_eq (acc : Vec Ideal S1024x1024 .f32) (b : Vec Ideal S1x1024 .f32) :
    k0_pay3 (F := Ideal) acc b
      = fun j => quant (relu (quant (acc j)
          + broadcastTo S1024x1024 (fun i => quant (b i) : FVec Ideal S1x1024 .f32) broadcasts_S1x1024_S1024x1024 j)) := by
  unfold k0_pay3
  simp only [shapeCast_self]
  rfl

/-- The epilogue at row `p`, column `c` of the block. -/
theorem pay3_apply (acc : Vec Ideal S1024x1024 .f32) (b : Vec Ideal S1x1024 .f32) (p c : Fin 1024) :
    k0_pay3 (F := Ideal) acc b (ix2 p c)
      = quant (relu (quant (acc (ix2 p c)) + quant (b (ix2 (0 : Fin 1) c)))) := by
  rw [pay3_eq]
  show quant (relu (quant (acc (ix2 p c)) + broadcastTo S1024x1024 (fun i => quant (b i) : FVec Ideal S1x1024 .f32)
    broadcasts_S1x1024_S1024x1024 (ix2 p c))) = _
  rw [broadcastTo_1b_ab_apply]

end Cert.KernelIdeal.Payload

end
-- ==== Proof.Accum.lean ====
import proofs.«103061_j73890617361017_2_alg».proof.Proof.Gen.KernelIdeal.Value
import proofs.«103061_j73890617361017_2_alg».proof.Proof.Pieces
import proofs.«103061_j73890617361017_2_alg».proof.Proof.Payload

/-!
The accumulator across the reduction axis.

The grid's 64 points run in row-major order of (row block, column block, reduction step), eight consecutive points per
output block. After point `n` the carried accumulator holds, at each block index, the sum of the block products of the
points of `n`'s run so far: the first point of a run stores `0 + product`, every later one adds its product to what the
point before left. By induction on the point.
-/

noncomputable section

namespace Cert.KernelIdeal.Accum

open Cert.KernelIdeal Cert.KernelIdeal.Gen Cert.KernelIdeal.Pieces Cert.KernelIdeal.Payload Cert.FixedPoint
open Idealize.ShloMosaic Idealize.ShloMosaic.TcCoe Idealize.SL.Sem Idealize.ShloMosaic.ValueIdx

variable (m : (ℓ : Loc nD τ sig) → Buf (Elt Ideal) ℓ)

/-- The product of point `n`'s two quantized blocks at a block index: 512 terms (zero past the grid, where it is never
    read). -/
def blockProd (c : Dev nD) (n : ℕ) (j : S1024x1024.Idx) : EReal :=
  if h : n < cfg0.N then
    ∑ k : Fin 512, quant ((iblk m c 0 ⟨n, h⟩ : Vec Ideal S1024x512 .f32) (ix2 (j 0) k))
      * quant ((iblk m c 1 ⟨n, h⟩ : Vec Ideal S512x1024 .f32) (ix2 k (j 1)))
  else 0

/-- The accumulation's payload at point `n`: the accumulator plus that product. -/
theorem pay2_at (c : Dev nD) (n : ℕ) (hb : n < cfg0.N) (acc : Vec Ideal S1024x1024 .f32) (j : S1024x1024.Idx) :
    k0_pay2 (F := Ideal) (iblk m c 0 ⟨n, hb⟩) (iblk m c 1 ⟨n, hb⟩) acc j = acc j + blockProd m c n j := by
  obtain ⟨p, q, rfl⟩ : ∃ (p : Fin 1024) (q : Fin 1024), j = ix2 p q := ⟨j 0, j 1, eq_ix2 j⟩
  unfold blockProd
  rw [dif_pos hb]
  exact pay2_apply (iblk m c 0 ⟨n, hb⟩) (iblk m c 1 ⟨n, hb⟩) acc p q

/-- THE RUNNING SUM. After point `n` the accumulator holds the products of the points `8·(n / 8) … n`, summed. -/
theorem acc_apply (c : Dev nD) : ∀ (n : ℕ) (h : n < cfg0.N) (j : S1024x1024.Idx),
    (outsAt0 m c n h).2 j = ∑ s ∈ Finset.range (n % 8 + 1), blockProd m c (8 * (n / 8) + s) j := by
  intro n
  induction n with
  | zero =>
    intro h j
    have h0 : (⟨0, h⟩ : Fin cfg0.N).val % 8 = 0 := rfl
    have h1 : ¬(⟨0, h⟩ : Fin cfg0.N).val % 8 = 7 := by show ¬(0 % 8 = 7); decide
    rw [show outsAt0 m c 0 h = _ from outsAt0_A m c ⟨0, h⟩ h0 h1]
    dsimp only
    refine (congrFun (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩)) j).trans ?_
    rw [pay2_at m c 0 h, pay1_apply, zero_add]
    show _ = ∑ s ∈ Finset.range 1, blockProd m c (0 + s) j
    rw [Finset.sum_range_one]
  | succ n ih =>
    intro h j
    have hN : n + 1 < 64 := lt_of_lt_of_eq h (show cfg0.N = 64 from N_0)
    by_cases h0 : (n + 1) % 8 = 0
    · have h1 : ¬(n + 1) % 8 = 7 := by omega
      rw [show outsAt0 m c (n + 1) h = _ from outsAt0_A m c ⟨n + 1, h⟩ h0 h1]
      dsimp only
      refine (congrFun (scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)) j).trans ?_
      rw [pay2_at m c (n + 1) h, pay1_apply, zero_add, h0, Finset.sum_range_one,
        show 8 * ((n + 1) / 8) + 0 = n + 1 by omega]
    · have hprev : n < cfg0.N := Nat.lt_of_succ_lt h
      have key : ∀ acc : Vec Ideal S1024x1024 .f32, acc = (outsAt0 m c n hprev).2 →
          k0_pay2 (F := Ideal) (iblk m c 0 ⟨n + 1, h⟩) (iblk m c 1 ⟨n + 1, h⟩) acc j
            = ∑ s ∈ Finset.range ((n + 1) % 8 + 1), blockProd m c (8 * ((n + 1) / 8) + s) j := by
        intro acc hacc
        rw [pay2_at m c (n + 1) h, hacc, show (n + 1) % 8 + 1 = (n % 8 + 1) + 1 by omega,
          show (n + 1) / 8 = n / 8 by omega, Finset.sum_range_succ,
          show 8 * (n / 8) + (n % 8 + 1) = n + 1 by omega, ih hprev j]
      by_cases h1 : (n + 1) % 8 = 7
      · rw [show outsAt0 m c (n + 1) h = _ from outsAt0_C m c ⟨n + 1, h⟩ h0 h1]
        dsimp only
        refine (congrFun (scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _) j).trans ?_
        exact key _ rfl
      · rw [show outsAt0 m c (n + 1) h = _ from outsAt0_B m c ⟨n + 1, h⟩ h0 h1]
        dsimp only
        refine (congrFun (scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _) j).trans ?_
        exact key _ rfl

end Cert.KernelIdeal.Accum

end
-- ==== Proof.Blocks.lean ====
import proofs.«103061_j73890617361017_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

/-!
The windows' blocks as reads of the argument arrays.

Point `t` of the 2 × 4 × 8 grid is (row block, column block, reduction step) = (`t / 32`, `t / 8 % 4`, `t % 8`). Its `x` block is
rows `1024·(t/32) …`, columns `512·(t%8) …` of `x`; its `w` block rows `512·(t%8) …`, columns `1024·(t/8%4) …` of `w`; its bias block
columns `1024·(t/8%4) …` of `b`, which the host reshaped from [4096] to [1, 4096] before the region; its output block rows
`1024·(t/32) …`, columns `1024·(t/8%4) …` of the result. A block's coordinate is always block index × block size + the
coordinate inside the block.
-/

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The printed index maps in closed form, decided once over the grid's 64 points. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The bias window's array is the host's reshape of `b` to one row. -/
theorem V_bias (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- The `x` block at a point, element by element. -/
theorem iblk0_apply (c : Dev nD) (t : Fin cfg0.N) (p : Fin 1024) (k : Fin 512) (r : Fin 2048) (cc : Fin 4096)
    (hr : r.val = 1024 * (t.val / 32) + p.val) (hc : cc.val = 512 * (t.val % 8) + k.val) :
    (iblk m c 0 t : Vec Ideal S1024x512 .f32) (ix2 p k) = m ((c : Thread nD τ).loc main_arg0) (ix2 r cc) := by
  obtain ⟨e0, e1, -⟩ := idx_facts t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = cc.val; rw [e1, hc]; omega

/-- The `w` block at a point, element by element. -/
theorem iblk1_apply (c : Dev nD) (t : Fin cfg0.N) (k : Fin 512) (q : Fin 1024) (r : Fin 4096) (cc : Fin 4096)
    (hr : r.val = 512 * (t.val % 8) + k.val) (hc : cc.val = 1024 * (t.val / 8 % 4) + q.val) :
    (iblk m c 1 t : Vec Ideal S512x1024 .f32) (ix2 k q) = m ((c : Thread nD τ).loc main_arg1) (ix2 r cc) := by
  obtain ⟨-, -, e0, e1, -⟩ := idx_facts t
  unfold iblk
  rw [View.read_apply]
  show V m c main_arg1 (((cfg0.win 1).blk t).view.emb (ix2 k q)) = _
  rw [V_main_arg1]
  refine congrArg _ (funext fun a => Fin.ext ?_)
  match a with
  | ⟨0, _⟩ => show win0_1.index t (0 : Fin 2) * 512 + 1 * k.val = r.val; rw [e0, hr]; omega
  | ⟨1, _⟩ => show win0_1.index t (1 : Fin 2) * 1024 + 1 * q.val = cc.val; rw [e1, hc]; omega

/-- The bias block at a point, element by element: a stretch of `b`. -/
theorem iblk2_apply (c : Dev nD) (t : Fin cfg0.N) (q : Fin 1024) (cc : Fin 4096)
    (hc : cc.val = 1024 * (t.val / 8 % 4) + q.val) :
    (iblk m c 2 t : Vec Ideal S1x1024 .f32) (ix2 (0 : Fin 1) q) = m ((c : Thread nD τ).loc main_arg2) (ix1 cc) := by
  obtain ⟨-, -, -, -, e0, e1, -⟩ := idx_facts t
  unfold iblk
  rw [View.read_apply]
  show V m c main_v0 (((cfg0.win 2).blk t).view.emb (ix2 (0 : Fin 1) q)) = _
  have e : ((cfg0.win 2).blk t).view.emb (ix2 (0 : Fin 1) q) = ix2 (0 : Fin 1) cc := funext fun a => Fin.ext (by
    match a with
    | ⟨0, _⟩ => show win0_2.index t (0 : Fin 2) * 1 + 1 * 0 = 0; rw [e0]
    | ⟨1, _⟩ => show win0_2.index t (1 : Fin 2) * 1024 + 1 * q.val = cc.val; rw [e1, hc]; omega)
  rw [e, V_bias, shapeCast_a_1a_apply]

/-- Where the output block's local index lands in the result array. -/
theorem oblk_emb (t : Fin cfg0.N) (p q : Fin 1024) (r : Fin 2048) (cc : Fin 4096)
    (hr : r.val = 1024 * (t.val / 32) + p.val) (hc : cc.val = 1024 * (t.val / 8 % 4) + q.val) :
    ((cfg0.win 3).blk t).view.emb (ix2 p q) = ix2 r cc := by
  obtain ⟨-, -, -, -, -, -, e0, e1⟩ := idx_facts t
  refine funext fun a => Fin.ext ?_
  match a with
  | ⟨0, _⟩ => show win0_3.index t (0 : Fin 2) * 1024 + 1 * p.val = r.val; rw [e0, hr]; omega
  | ⟨1, _⟩ => show win0_3.index t (1 : Fin 2) * 1024 + 1 * q.val = cc.val; rw [e1, hc]; omega

end Cert.KernelIdeal.Blocks

end
-- ==== Proof.Spec.lean ====
import proofs.«103061_j73890617361017_2_alg».proof.Proof.FixedPoint
import Idealize.ShloMosaic.Lib.ValueIdx

/-!
The specification: what both programs compute, as one function of the three argument arrays.

At row `r`, column `c` the result is `q(relu(q(Σₖ q(x[r,k]) · q(w[k,c])) + q(b[c])))` over all 4096 values of `k`, with `q` the
fixed-point rounding of FixedPoint.lean. The kernel reaches the inner sum as eight partial sums of 512 terms each, one per
step of the grid's reduction axis; the two groupings are one sum, because addition of extended reals is commutative and
associative (no finiteness is needed for that).
-/

noncomputable section

namespace Cert.Spec

open Cert.FixedPoint Idealize.ShloMosaic Idealize.ShloMosaic.ValueIdx

/-- The result at row `r`, column `c`. -/
def denseAt (X : (⟨2, ![2048, 4096]⟩ : Shape).Idx → EReal) (W : (⟨2, ![4096, 4096]⟩ : Shape).Idx → EReal)
    (B : (⟨1, ![4096]⟩ : Shape).Idx → EReal) (r : Fin 2048) (c : Fin 4096) : EReal :=
  quant (relu (quant (∑ k : Fin 4096, quant (X (ix2 r k)) * quant (W (ix2 k c))) + quant (B (ix1 c))))

/-- The whole result array. -/
def dense (X : (⟨2, ![2048, 4096]⟩ : Shape).Idx → EReal) (W : (⟨2, ![4096, 4096]⟩ : Shape).Idx → EReal)
    (B : (⟨1, ![4096]⟩ : Shape).Idx → EReal) : (⟨2, ![2048, 4096]⟩ : Shape).Idx → EReal :=
  fun i => denseAt X W B (i 0) (i 1)

/-- Two indices of a matrix with the same coordinates are one index. -/
theorem ix2_congr {n0 n1 : ℕ} {a a' : Fin n0} {b b' : Fin n1} (ha : a.val = a'.val) (hb : b.val = b'.val) :
    ix2 a b = ix2 a' b' := by
  rw [Fin.ext ha, Fin.ext hb]

/-- A sum over `a · b` consecutive indices is the sum, over `a` blocks, of the sums over each block's `b` indices. -/
theorem sum_blocks {β : Type*} [AddCommMonoid β] (a b : ℕ) (f : ℕ → β) :
    ∑ k : Fin (a * b), f k.val = ∑ s ∈ Finset.range a, ∑ k : Fin b, f (b * s + k.val) := by
  rw [Finset.sum_range, ← Equiv.sum_comp finProdFinEquiv, Fintype.sum_prod_type]
  refine Finset.sum_congr rfl fun x _ => Finset.sum_congr rfl fun y _ => ?_
  show f (y.val + b * x.val) = f (b * x.val + y.val)
  rw [Nat.add_comm]

/-- One term of the inner sum, by its position `k` along the contracted axis (zero past the axis, where it is never read). -/
def rowProd (X : (⟨2, ![2048, 4096]⟩ : Shape).Idx → EReal) (W : (⟨2, ![4096, 4096]⟩ : Shape).Idx → EReal)
    (r : Fin 2048) (c : Fin 4096) (k : ℕ) : EReal :=
  if h : k < 4096 then quant (X (ix2 r ⟨k, h⟩)) * quant (W (ix2 ⟨k, h⟩ c)) else 0

theorem rowProd_of_lt (X : (⟨2, ![2048, 4096]⟩ : Shape).Idx → EReal) (W : (⟨2, ![4096, 4096]⟩ : Shape).Idx → EReal)
    (r : Fin 2048) (c : Fin 4096) {k : ℕ} (h : k < 4096) :
    rowProd X W r c k = quant (X (ix2 r ⟨k, h⟩)) * quant (W (ix2 ⟨k, h⟩ c)) := dif_pos h

/-- The inner sum over all 4096 positions is the sum of eight partial sums of 512 consecutive positions each. -/
theorem sum_rowProd (X : (⟨2, ![2048, 4096]⟩ : Shape).Idx → EReal) (W : (⟨2, ![4096, 4096]⟩ : Shape).Idx → EReal)
    (r : Fin 2048) (c : Fin 4096) :
    ∑ k : Fin 4096, quant (X (ix2 r k)) * quant (W (ix2 k c))
      = ∑ s ∈ Finset.range 8, ∑ k : Fin 512, rowProd X W r c (512 * s + k.val) := by
  rw [← sum_blocks 8 512 (rowProd X W r c)]
  show ∑ k : Fin 4096, _ = ∑ k : Fin 4096, rowProd X W r c k.val
  exact Finset.sum_congr rfl fun k _ => (rowProd_of_lt X W r c k.isLt).symm

end Cert.Spec

end
-- ==== Proof.Final.lean ====
import proofs.«103061_j73890617361017_2_alg».proof.Proof.Accum
import proofs.«103061_j73890617361017_2_alg».proof.Proof.Blocks
import proofs.«103061_j73890617361017_2_alg».proof.Proof.Spec

/-!
The kernel's result array is the specification of the argument arrays.

The output block of (row block, column block) is written back once, after the last step of its reduction run. What is
written there is the epilogue of the finished accumulator — the eight block products of the run, each a 512-term sum
over a stretch of the contracted axis, together the whole 4096-term sum — and of the bias stretch of the block's
columns: the specification read at the block's place in the array. The eight output blocks' write-backs tile the array.
-/

noncomputable section

namespace Cert.KernelIdeal.Final

open Cert.KernelIdeal Cert.KernelIdeal.Gen Cert.KernelIdeal.Pieces Cert.KernelIdeal.Payload Cert.KernelIdeal.Accum
open Cert.KernelIdeal.Blocks Cert.FixedPoint Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array holds after the run: the specification of the three argument arrays as launched. -/
abbrev result (c : Dev nD) : Buf (Elt Ideal) ((c : Thread nD τ).loc main_v1) :=
  dense (m ((c : Thread nD τ).loc main_arg0)) (m ((c : Thread nD τ).loc main_arg1)) (m ((c : Thread nD τ).loc main_arg2))

/-- The block product of step `s` of point `t`'s run, at the block's row `p` and column `q`, is the partial sum of the
    specification's inner sum over positions `512·s … 512·s + 511`, at the array's row and column of that place. -/
theorem blockProd_args (c : Dev nD) (t : Fin cfg0.N) (s : ℕ) (hs : s < 8) (p q : Fin 1024) (r : Fin 2048) (cc : Fin 4096)
    (hr : r.val = 1024 * (t.val / 32) + p.val) (hc : cc.val = 1024 * (t.val / 8 % 4) + q.val) :
    blockProd m c (8 * (t.val / 8) + s) (ix2 p q)
      = ∑ k : Fin 512, rowProd (m ((c : Thread nD τ).loc main_arg0)) (m ((c : Thread nD τ).loc main_arg1)) r cc (512 * s + k.val) := by
  have ht : t.val < 64 := lt_of_lt_of_eq t.isLt (show cfg0.N = 64 from N_0)
  have hn : 8 * (t.val / 8) + s < cfg0.N :=
    lt_of_lt_of_eq (by omega : 8 * (t.val / 8) + s < 64) (show cfg0.N = 64 from N_0).symm
  unfold blockProd
  rw [dif_pos hn]
  refine Finset.sum_congr rfl fun k _ => ?_
  have hk : 512 * s + k.val < 4096 := by have := k.isLt; omega
  rw [rowProd_of_lt _ _ r cc hk]
  exact congrArg₂ (fun a b => quant a * quant b)
    (iblk0_apply m c ⟨8 * (t.val / 8) + s, hn⟩ p k r ⟨512 * s + k.val, hk⟩
      (by show r.val = 1024 * ((8 * (t.val / 8) + s) / 32) + p.val; rw [hr]; omega)
      (by show 512 * s + k.val = 512 * ((8 * (t.val / 8) + s) % 8) + k.val; omega))
    (iblk1_apply m c ⟨8 * (t.val / 8) + s, hn⟩ k q ⟨512 * s + k.val, hk⟩ cc
      (by show 512 * s + k.val = 512 * ((8 * (t.val / 8) + s) % 8) + k.val; omega)
      (by show cc.val = 1024 * ((8 * (t.val / 8) + s) / 8 % 4) + q.val; rw [hc]; omega))

/-- At the last step of a run the output block is the epilogue of the finished accumulator and the bias block. -/
theorem out_eq (c : Dev nD) (t : Fin cfg0.N) (h0 : ¬t.val % 8 = 0) (h7 : t.val % 8 = 7) :
    (outsAt0 m c t.val t.isLt).1 = k0_pay3 (F := Ideal) (outsAt0 m c t.val t.isLt).2 (iblk m c 2 t) := by
  rw [outsAt0_C m c t h0 h7]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7) (iblk m c 0 t) (iblk m c 1 t) (iblk m c 2 t) _).trans
    (congrArg (fun a => k0_pay3 (F := Ideal) a (iblk m c 2 t))
      (scratch_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7) (iblk m c 0 t) (iblk m c 1 t) (iblk m c 2 t) _).symm)

/-- … which is the specification at the block's place in the array, index by index. -/
theorem block_value (c : Dev nD) (t : Fin cfg0.N) (h7 : t.val % 8 = 7) (y : S1024x1024.Idx) :
    k0_pay3 (F := Ideal) (outsAt0 m c t.val t.isLt).2 (iblk m c 2 t) y
      = result m c (((cfg0.win 3).blk t).view.emb y) := by
  obtain ⟨p, q, rfl⟩ : ∃ (p : Fin 1024) (q : Fin 1024), y = ix2 p q := ⟨y 0, y 1, eq_ix2 y⟩
  have ht : t.val < 64 := lt_of_lt_of_eq t.isLt (show cfg0.N = 64 from N_0)
  have hrlt : 1024 * (t.val / 32) + p.val < 2048 := by have := p.isLt; omega
  have hclt : 1024 * (t.val / 8 % 4) + q.val < 4096 := by have := q.isLt; omega
  rw [oblk_emb t p q ⟨_, hrlt⟩ ⟨_, hclt⟩ rfl rfl,
    pay3_apply (outsAt0 m c t.val t.isLt).2 (iblk m c 2 t) p q,
    iblk2_apply m c t q ⟨_, hclt⟩ rfl,
    acc_apply m c t.val t.isLt (ix2 p q), h7]
  have hsum : ∑ s ∈ Finset.range (7 + 1), blockProd m c (8 * (t.val / 8) + s) (ix2 p q)
      = ∑ s ∈ Finset.range 8, ∑ k : Fin 512, rowProd (m ((c : Thread nD τ).loc main_arg0)) (m ((c : Thread nD τ).loc main_arg1))
          ⟨_, hrlt⟩ ⟨_, hclt⟩ (512 * s + k.val) :=
    Finset.sum_congr rfl fun s hs => blockProd_args m c t s (Finset.mem_range.mp hs) p q ⟨_, hrlt⟩ ⟨_, hclt⟩ rfl rfl
  rw [hsum, ← sum_rowProd]
  rfl

/-- What a flushing point writes back is its block of the specification. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  rw [Value.flushed3, out_eq m c t h0 h7]
  funext y
  exact block_value m c t h7 y

/-- An index of the result array is in point `t`'s output block iff each coordinate is in the block's range. -/
theorem mem_blk (t : Fin cfg0.N) (i : S2048x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result array is in the output block of the last step of its (row block, column block)'s run. -/
theorem cover (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  have hn : 32 * ((i 0).val / 1024) + 8 * ((i 1).val / 1024) + 7 < cfg0.N :=
    lt_of_lt_of_eq (by omega : 32 * ((i 0).val / 1024) + 8 * ((i 1).val / 1024) + 7 < 64) (show cfg0.N = 64 from N_0).symm
  refine ⟨⟨_, hn⟩, (flush0_3 _).mpr (by show (32 * ((i 0).val / 1024) + 8 * ((i 1).val / 1024) + 7) % 8 = 7; omega), ?_⟩
  rw [mem_blk]
  obtain ⟨-, -, -, -, -, -, e0, e1⟩ := idx_facts ⟨_, hn⟩
  intro a
  match a with
  | ⟨0, _⟩ =>
    show win0_3.index ⟨_, hn⟩ (0 : Fin 2) * 1024 ≤ (i 0).val ∧ (i 0).val < win0_3.index ⟨_, hn⟩ (0 : Fin 2) * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_3.index ⟨_, hn⟩ (1 : Fin 2) * 1024 ≤ (i 1).val ∧ (i 1).val < win0_3.index ⟨_, hn⟩ (1 : Fin 2) * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- THE RESULT ARRAY after the run is the specification. -/
theorem final (c : Dev nD) : (dats m 0 c).arrAt 3 cfg0.N = result m c :=
  (dats m 0 c).arrAt_eq_of_cover 3 (result m c) (flushed_eq m c) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefValue.lean ====
import proofs.«103061_j73890617361017_2_alg».proof.Proof.Gen.ReferenceIdeal.Read
import proofs.«103061_j73890617361017_2_alg».proof.Proof.Spec

/-!
The reference computes the specification on finite inputs.

Stage by stage: the reference rounds `x`, `w` and `b` to the fixed-point grid in its straight-through form
`v + (round(v·2¹⁶)/2¹⁶ − v)`, multiplies the rounded matrices (one sum over all 4096 values of `k`), rounds the product, adds
the rounded bias row, applies the ReLU select and rounds once more. Every value a rounding meets is a real number when
the inputs are — a rounded real, a finite sum of products of reals, a ReLU of a real — so every straight-through
rounding is the plain rounding `round(v·2¹⁶)·2⁻¹⁶` there, and the result is `Spec.dense`.
-/

noncomputable section

namespace Cert.ReferenceIdeal.RefValue

open Cert.ReferenceIdeal Cert.ReferenceIdeal.Read Cert.FixedPoint Cert.Spec
open Idealize.ShloMosaic Idealize.ShloMosaic.ValueIdx

variable (X : (⟨S2048x4096, .f32⟩ : BufTy).Contents (Elt Ideal)) (W : (⟨S4096x4096, .f32⟩ : BufTy).Contents (Elt Ideal))
  (B : (⟨S4096, .f32⟩ : BufTy).Contents (Elt Ideal))

/-- The reference's rounded `x`, element by element. -/
theorem xq_apply (i : S2048x4096.Idx) : val_main_v6 (F := Ideal) X i = quantST (X i) := by
  rw [val_main_v6_apply, val_main_v5_apply, val_main_v4_apply, val_main_v3_apply, val_main_cst_0_apply,
    val_main_v2_apply, val_main_v1_apply, val_main_v0_apply, val_main_cst_apply]
  rfl

/-- The reference's rounded `w`, element by element. -/
theorem wq_apply (i : S4096x4096.Idx) : val_main_v13 (F := Ideal) W i = quantST (W i) := by
  rw [val_main_v13_apply, val_main_v12_apply, val_main_v11_apply, val_main_v10_apply, val_main_cst_2_apply,
    val_main_v9_apply, val_main_v8_apply, val_main_v7_apply, val_main_cst_1_apply]
  rfl

/-- The reference's rounded `b`, element by element. -/
theorem bq_apply (i : S4096.Idx) : val_main_v28 (F := Ideal) B i = quantST (B i) := by
  rw [val_main_v28_apply, val_main_v27_apply, val_main_v26_apply, val_main_v25_apply, val_main_cst_6_apply,
    val_main_v24_apply, val_main_v23_apply, val_main_v22_apply, val_main_cst_5_apply]
  rfl

/-- The reference's matrix product at row `i 0`, column `i 1`: the 4096-term sum over the rounded operands. -/
theorem mm_apply (i : S2048x4096.Idx) :
    val_main_v14 (F := Ideal) X W i = ∑ k : Fin 4096, quantST (X (ix2 (i 0) k)) * quantST (W (ix2 k (i 1))) := by
  rw [val_main_v14_apply]
  refine Finset.sum_congr rfl fun k _ => ?_
  rw [xq_apply, wq_apply]
  have el : lidx_main_v14 i k = ix2 (i 0) k := funext fun a => by match a with | ⟨0, _⟩ => rfl | ⟨1, _⟩ => rfl
  have er : ridx_main_v14 i k = ix2 k (i 1) := funext fun a => by match a with | ⟨0, _⟩ => rfl | ⟨1, _⟩ => rfl
  rw [el, er]
  rfl

/-- The rounded product, then the bias row added. -/
theorem biased_apply (i : S2048x4096.Idx) :
    val_main_v31 (F := Ideal) X W B i = quantST (val_main_v14 (F := Ideal) X W i) + quantST (B (ix1 (i 1))) := by
  rw [val_main_v31_apply, val_main_v30_apply, val_main_v29_apply, bq_apply, val_main_v21_apply, val_main_v20_apply,
    val_main_v19_apply, val_main_v18_apply, val_main_cst_4_apply, val_main_v17_apply, val_main_v16_apply,
    val_main_v15_apply, val_main_cst_3_apply]
  have eb : idx_main_v29 (idx_main_v30 i) = ix1 (i 1) := funext fun a => by match a with | ⟨0, _⟩ => rfl
  rw [eb]
  rfl

/-- The ReLU select, then the last rounding. -/
theorem out_apply (i : S2048x4096.Idx) :
    val_main_v41 (F := Ideal) X W B i = quantST (relu (val_main_v31 (F := Ideal) X W B i)) := by
  rw [val_main_v41_apply, val_main_v40_apply, val_main_v39_apply, val_main_v38_apply, val_main_cst_10_apply,
    val_main_v37_apply, val_main_v36_apply, val_main_v35_apply, val_main_cst_9_apply, val_main_v34_apply,
    val_main_v33_apply, val_main_v32_apply, val_main_cst_7_apply, val_main_call4_v0_apply, val_main_cst_8_apply]
  rfl

/-- THE REFERENCE IS THE SPECIFICATION on arrays of real numbers. -/
theorem ref_eq (hX : ∀ i, IsReal (X i)) (hW : ∀ i, IsReal (W i)) (hB : ∀ i, IsReal (B i)) :
    val_main_v41 (F := Ideal) X W B = dense X W B := by
  funext i
  have hmm : val_main_v14 (F := Ideal) X W i = ∑ k : Fin 4096, quant (X (ix2 (i 0) k)) * quant (W (ix2 k (i 1))) := by
    rw [mm_apply]
    exact Finset.sum_congr rfl fun k _ => by rw [quantST_eq (hX _), quantST_eq (hW _)]
  have hmmR : IsReal (val_main_v14 (F := Ideal) X W i) := by
    rw [hmm]
    exact isReal_sum _ _ fun k _ => isReal_mul (isReal_quant (hX _)) (isReal_quant (hW _))
  have hb : val_main_v31 (F := Ideal) X W B i = quant (val_main_v14 (F := Ideal) X W i) + quant (B (ix1 (i 1))) := by
    rw [biased_apply, quantST_eq hmmR, quantST_eq (hB _)]
  have hbR : IsReal (val_main_v31 (F := Ideal) X W B i) := by
    rw [hb]
    exact isReal_add (isReal_quant hmmR) (isReal_quant (hB _))
  rw [out_apply, quantST_eq (isReal_relu hbR), hb, hmm]
  rfl

end Cert.ReferenceIdeal.RefValue

end
-- ==== Proof.Finite.lean ====
import proofs.«103061_j73890617361017_2_alg».proof.Pre_finite_inputs
import proofs.«103061_j73890617361017_2_alg».proof.Proof.FixedPoint
import Idealize.ShloMosaic.Lib.ReduceAll
import Idealize.ShloMosaic.Lib.ValueIdx

/-!
The precondition read back: every element of the three inputs is a real number.

The precondition is the conjunction of three `all(|v| < +∞)` reductions; a conjunction of bits that is 1 has every
conjunct 1, an `and`-reduction that is 1 met only 1s, and `|v| < +∞` on the extended reals says `v` is neither infinity.
-/

noncomputable section

namespace Cert.Finite

open Cert.FixedPoint Cert.Pre_finite_inputs Idealize.ShloMosaic

variable [hP : Cert.Pre_finite_inputs.Facts]

instance subsingleton_scalar : Subsingleton S_.Idx := ⟨fun a b => funext fun d => d.elim0⟩

/-- Under the precondition every element of `x`, `w` and `b` is a real number. -/
theorem reals_of_pre (X : FVec Ideal S2048x4096 .f32) (W : FVec Ideal S4096x4096 .f32) (B : FVec Ideal S4096 .f32)
    (h : Cert.Pre_finite_inputs.fn (F := Ideal) X W B = fun _ => 1#1) :
    (∀ i, IsReal (X i)) ∧ (∀ i, IsReal (W i)) ∧ (∀ i, IsReal (B i)) := by
  have h' := congrFun h ValueIdx.ix0
  dsimp only [Cert.Pre_finite_inputs.fn] at h'
  obtain ⟨h12, h3⟩ := IntOp.andi_eq_one.mp h'
  obtain ⟨h1, h2⟩ := IntOp.andi_eq_one.mp h12
  refine ⟨fun i => ?_, fun i => ?_, fun i => ?_⟩
  · exact isReal_of_abs_lt_inf (Host.reduce_andi_all _ _ _ _ _ h1 i)
  · exact isReal_of_abs_lt_inf (Host.reduce_andi_all _ _ _ _ _ h2 i)
  · exact isReal_of_abs_lt_inf (Host.reduce_andi_all _ _ _ _ _ h3 i)

end Cert.Finite

end
-- ==== Proof.lean ====
/-
  A dense layer on the fixed-point grid of 16 fractional bits — `q(relu(q(q(x) · q(w)) + q(b)))`, with `q(v) = round(v · 2¹⁶) · 2⁻¹⁶`
  (ties to even) — as a tiled kernel against its plain reference, over the extended reals.

  The kernel walks a 2 × 4 × 8 grid of (row block, column block, reduction step): a [1024, 1024] accumulator is zeroed at
  the first step of a run, takes the product of the step's rounded [1024, 512] and [512, 1024] blocks at every step, and
  at the last step is rounded, gets the rounded bias row, goes through the ReLU select and a last rounding, and is
  written to the output block. So the result at (r, c) rounds the sum of eight 512-term partial sums; the reference
  rounds one 4096-term sum. These are one sum, since addition of extended reals is commutative and associative
  (Spec.lean). The reference spells each rounding `v + (round(v · 2¹⁶) / 2¹⁶ − v)`, which is `q(v)` on a real `v` and junk at an
  infinity: this is where the precondition — every input finite — is used, and every value a rounding meets stays real
  (FixedPoint.lean, RefValue.lean, Finite.lean). The kernel's side is read off the frame run: what a point leaves
  (Pieces.lean, Payload.lean), the accumulator by induction on the point (Accum.lean), the blocks as reads of the
  arguments (Blocks.lean), the write-backs tiling the result array (Final.lean).
-/
import proofs.«103061_j73890617361017_2_alg».proof.Defs
import proofs.«103061_j73890617361017_2_alg».proof.Proof.Gen.Kernel
import proofs.«103061_j73890617361017_2_alg».proof.Proof.Gen.Kernel.Skeleton
import proofs.«103061_j73890617361017_2_alg».proof.Proof.Gen.Kernel.Launch
import proofs.«103061_j73890617361017_2_alg».proof.Proof.Gen.Kernel.Points
import proofs.«103061_j73890617361017_2_alg».proof.Proof.Gen.Kernel.Frame
import proofs.«103061_j73890617361017_2_alg».proof.Proof.Gen.KernelIdeal
import proofs.«103061_j73890617361017_2_alg».proof.Proof.Gen.KernelIdeal.Skeleton
import proofs.«103061_j73890617361017_2_alg».proof.Proof.Gen.KernelIdeal.Launch
import proofs.«103061_j73890617361017_2_alg».proof.Proof.Gen.KernelIdeal.Points
import proofs.«103061_j73890617361017_2_alg».proof.Proof.Gen.KernelIdeal.Frame
import proofs.«103061_j73890617361017_2_alg».proof.Proof.Gen.ReferenceIdeal
import proofs.«103061_j73890617361017_2_alg».proof.Proof.Gen.Pre_finite_inputs
import proofs.«103061_j73890617361017_2_alg».proof.Proof.Gen.KernelIdeal.Value
import proofs.«103061_j73890617361017_2_alg».proof.Proof.Gen.ReferenceIdeal.Run
import proofs.«103061_j73890617361017_2_alg».proof.Proof.Gen.ReferenceIdeal.Read
import proofs.«103061_j73890617361017_2_alg».proof.Proof.Final
import proofs.«103061_j73890617361017_2_alg».proof.Proof.RefValue
import proofs.«103061_j73890617361017_2_alg».proof.Proof.Finite
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the specification of arguments that agree: the kernel's result array by its write-backs, the
    reference's by its stages on finite inputs. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB⟩ := Cert.Finite.reals_of_pre _ _ _ (hpre c)
  rw [Cert.ReferenceIdeal.Read.val_main_v41_eq, (hagree c).1, (hagree c).2.1, (hagree c).2.2]
  exact Cert.ReferenceIdeal.RefValue.ref_eq _ _ _ hX hW hB

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
